-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8192x4096 : Shape := ⟨2, ![8192, 4096]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S4096x8192 .f32) (main_arg1 : FVec F S8192x4096 .f32) (main_arg2 : FVec F S8192x4096 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  main_v13
-- ==== Kernel.lean ====
abbrev S4096x8192 : Shape := ⟨2, ![4096, 8192]⟩
abbrev S8192x4096 : Shape := ⟨2, ![8192, 4096]⟩
abbrev S4096x4096 : Shape := ⟨2, ![4096, 4096]⟩
abbrev S2048x256 : Shape := ⟨2, ![2048, 256]⟩
abbrev S256x1024 : Shape := ⟨2, ![256, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x4096, .f32⟩
  | .hbm, ⟨2, _⟩ => ⟨S8192x4096, .f32⟩
  | .hbm, ⟨3, _⟩ => ⟨S4096x4096, .f32⟩
  | .local _ .vmem, ⟨0, _⟩ => ⟨S2048x256, .f32⟩
  | .local _ .vmem, ⟨1, _⟩ => ⟨S2048x256, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x1024, .f32⟩
  | .local _ .vmem, ⟨7, _⟩ => ⟨S2048x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S2048x1024_S2048x1024_0_0 : ∀ a, (![0, 0] : Fin 2 → Nat) a + S2048x1024.size a ≤ S2048x1024.size a
  h_S2048x1024 : 0 < S2048x1024.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S2048x1024_S2048x1024 : S2048x1024.ShapeCasts S2048x1024
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x8192.size a
  hwx0_0 : ∀ i : grid0.Coords, EltTy.bits .f32 = 32 ∨ (Rect.block (s := S4096x8192) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x4096.size a
  hwx0_1 : ∀ i : grid0.Coords, EltTy.bits .f32 = 32 ∨ (Rect.block (s := S8192x4096) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x4096.size a
  hwx0_2 : ∀ i : grid0.Coords, EltTy.bits .f32 = 32 ∨ (Rect.block (s := S8192x4096) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .f32 = 32 ∨ (Rect.block (s := S4096x4096) S2048x1024.size (cc0_transform_3 i) (hinb0_3 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S4096x4096, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x8192_S8192x4096_S4096x4096_1_0_0_1_n_n_wf : DotDims.WF S4096x8192 S8192x4096 S4096x4096 [1] [0] [0] [1] [] []

variable [Facts₀]

def dot_S4096x8192_S8192x4096_S4096x4096_1_0_0_1_n_n : DotDims S4096x8192 S8192x4096 S4096x4096 where
  lhsContracting := [1]
  rhsContracting := [0]
  lhsNonContracting := [0]
  rhsNonContracting := [1]
  lhsBatch := []
  rhsBatch := []
  wf := dot_S4096x8192_S8192x4096_S4096x4096_1_0_0_1_n_n_wf

class Facts : Prop extends Facts₀ where

variable [Facts]
-- ==== Proof.Payload.lean ====
/-
  The body's arithmetic at one entry of the output block. At the extended reals a change of float format is the
  identity and the matrix unit's product into a zero accumulator is the plain sum over the contracted axis, so what
  one grid step stores at row `r`, column `q` of the 2048 × 1024 block is what the block held there plus
      ∑ k < 256, x[r, k] · (mask[k, q] · w[k, q])
  over the step's three input blocks; the first step of a run starts from the zero block.
-/
import proofs.«112827_j72696616452696_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Bridge

open Cert.KernelIdeal Cert.KernelIdeal.Gen Idealize.ShloMosaic Idealize.ShloMosaic.ValueIdx

/-- The block a run starts from is zero everywhere. -/
theorem pay1_apply (y : S2048x1024.Idx) : k0_pay1 (F := Ideal) y = 0 := by
  show Ideal.ofBits .f32 0x00000000#32 = 0
  exact Ideal.ofBits_zero_f32

/-- The operand indices of the block product at output entry `j` and contracted index `p`: `(j 0, p)` on the left,
    `(p, j 1)` on the right. -/
theorem lhs_0 (j : S2048x1024.Idx) (p : dot_S2048x256_S256x1024_S2048x1024_1_0_0_1_n_n.contr.Idx) :
    (dot_S2048x256_S256x1024_S2048x1024_1_0_0_1_n_n.lhsIdx j p 0).val = (j 0).val := by
  unfold DotDims.lhsIdx
  rw [dif_neg (show ¬(0 : Fin S2048x256.rank) ∈ dot_S2048x256_S256x1024_S2048x1024_1_0_0_1_n_n.lhsBatch by decide), dif_pos (show (0 : Fin S2048x256.rank) ∈ dot_S2048x256_S256x1024_S2048x1024_1_0_0_1_n_n.lhsNonContracting by decide)]
  rfl
theorem lhs_1 (j : S2048x1024.Idx) (p : dot_S2048x256_S256x1024_S2048x1024_1_0_0_1_n_n.contr.Idx) :
    (dot_S2048x256_S256x1024_S2048x1024_1_0_0_1_n_n.lhsIdx j p 1).val = (p ⟨0, by decide⟩).val :=
  dot_S2048x256_S256x1024_S2048x1024_1_0_0_1_n_n.lhsIdx_val_of_single rfl j p
theorem rhs_0 (j : S2048x1024.Idx) (p : dot_S2048x256_S256x1024_S2048x1024_1_0_0_1_n_n.contr.Idx) :
    (dot_S2048x256_S256x1024_S2048x1024_1_0_0_1_n_n.rhsIdx j p 0).val = (p ⟨0, by decide⟩).val :=
  dot_S2048x256_S256x1024_S2048x1024_1_0_0_1_n_n.rhsIdx_val_of_single rfl j p
theorem rhs_1 (j : S2048x1024.Idx) (p : dot_S2048x256_S256x1024_S2048x1024_1_0_0_1_n_n.contr.Idx) :
    (dot_S2048x256_S256x1024_S2048x1024_1_0_0_1_n_n.rhsIdx j p 1).val = (j 1).val := by
  unfold DotDims.rhsIdx
  rw [dif_neg (show ¬(1 : Fin S256x1024.rank) ∈ dot_S2048x256_S256x1024_S2048x1024_1_0_0_1_n_n.rhsBatch by decide), dif_pos (show (1 : Fin S256x1024.rank) ∈ dot_S2048x256_S256x1024_S2048x1024_1_0_0_1_n_n.rhsNonContracting by decide)]
  rfl

/-- The partial sum one step contributes at entry `(r, q)` of the output block, over the step's three input blocks. -/
def blockSum (x0 : FVec Ideal S2048x256 .f32) (x1 x2 : FVec Ideal S256x1024 .f32) (r : Fin 2048) (q : Fin 1024) : EReal :=
  ∑ k : Fin 256, x0 (ix2 r k) * (x1 (ix2 k q) * x2 (ix2 k q))

/-- One step's stored block at entry `(r, q)`: the block's previous entry plus the 256-term partial sum of the
    step's input blocks. -/
theorem pay2_apply (x0 : FVec Ideal S2048x256 .f32) (x1 x2 : FVec Ideal S256x1024 .f32) (acc : FVec Ideal S2048x1024 .f32)
    (r : Fin 2048) (q : Fin 1024) :
    k0_pay2 (F := Ideal) x0 x1 x2 acc (ix2 r q)
      = acc (ix2 r q) + blockSum x0 x1 x2 r q := by
  unfold k0_pay2 blockSum
  show (shapeCast S2048x1024 acc shapeCasts_S2048x1024_S2048x1024) (ix2 r q)
      + FloatOps.matmul dot_S2048x256_S256x1024_S2048x1024_1_0_0_1_n_n none (truncf FTy.bf16 x0 bitsLt_bf16_f32)
          (mulf (truncf FTy.bf16 x1 bitsLt_bf16_f32) (truncf FTy.bf16 x2 bitsLt_bf16_f32))
          (constant S2048x1024 FTy.f32 0x00000000#32) (ix2 r q) = _
  rw [shapeCast_self]
  refine congrArg (acc (ix2 r q) + ·) ?_
  refine (Ideal.matmul_constant_zero_apply dot_S2048x256_S256x1024_S2048x1024_1_0_0_1_n_n none _ _ (ix2 r q)).trans ?_
  rw [← Equiv.sum_comp (contrEquiv1 dot_S2048x256_S256x1024_S2048x1024_1_0_0_1_n_n 256 rfl rfl).symm]
  refine Finset.sum_congr rfl fun k _ => ?_
  have hk := contrEquiv1_symm_val dot_S2048x256_S256x1024_S2048x1024_1_0_0_1_n_n 256 rfl rfl k
  have el : dot_S2048x256_S256x1024_S2048x1024_1_0_0_1_n_n.lhsIdx (ix2 r q) ((contrEquiv1 dot_S2048x256_S256x1024_S2048x1024_1_0_0_1_n_n 256 rfl rfl).symm k) = ix2 r k :=
    funext fun a => Fin.ext (by
      match a with
      | ⟨0, _⟩ => exact lhs_0 _ _
      | ⟨1, _⟩ => exact (lhs_1 _ _).trans hk)
  have er : dot_S2048x256_S256x1024_S2048x1024_1_0_0_1_n_n.rhsIdx (ix2 r q) ((contrEquiv1 dot_S2048x256_S256x1024_S2048x1024_1_0_0_1_n_n 256 rfl rfl).symm k) = ix2 k q :=
    funext fun a => Fin.ext (by
      match a with
      | ⟨0, _⟩ => exact (rhs_0 _ _).trans hk
      | ⟨1, _⟩ => exact rhs_1 _ _)
  rw [el, er]
  rfl

end Cert.KernelIdeal.Bridge

end
-- ==== Proof.Spec.lean ====
/-
  The function both programs compute: the product of `x` (4096 × 8192) with the entrywise product of `mask` and
  `w` (8192 × 4096), entry by entry, over the extended reals:
      out[r, q] = ∑ k, x[r, k] · (mask[k, q] · w[k, q]).
  The kernel takes the sum over `k` in 32 consecutive runs of 256 (one run per step of its innermost grid axis,
  accumulated into the output block); the reference takes it at once. Regrouping a finite sum needs only that
  addition is commutative and associative, so no finiteness of the inputs is used.
-/
import Idealize.ShloMosaic.PureOps.Ideal
import Idealize.ShloMosaic.Lib.ValueIdx

noncomputable section

open scoped BigOperators

namespace Cert.MaskedMatmul

open Idealize.ShloMosaic Idealize.ShloMosaic.ValueIdx

/-- Entry `(r, q)` of `x · (mask ⊙ w)`: the sum over the contracted axis of `x[r, k] · (mask[k, q] · w[k, q])`. -/
def entry (x : (⟨2, ![4096, 8192]⟩ : Shape).Idx → EReal) (mk w : (⟨2, ![8192, 4096]⟩ : Shape).Idx → EReal)
    (r q : Fin 4096) : EReal :=
  ∑ k : Fin 8192, x (ix2 r k) * (mk (ix2 k q) * w (ix2 k q))

/-- The whole result array. -/
def product (x : (⟨2, ![4096, 8192]⟩ : Shape).Idx → EReal) (mk w : (⟨2, ![8192, 4096]⟩ : Shape).Idx → EReal) :
    (⟨2, ![4096, 4096]⟩ : Shape).Idx → EReal :=
  fun i => entry x mk w (i 0) (i 1)

/-- A sum over 8192 terms taken in 32 consecutive runs of 256: term `256·s + j` is the `j`-th of run `s`. -/
theorem sum_runs {β : Type*} [AddCommMonoid β] (g : Fin 8192 → β) :
    ∑ k : Fin 8192, g k
      = ∑ s : Fin 32, ∑ j : Fin 256, g ⟨256 * s.val + j.val, by have := s.isLt; have := j.isLt; omega⟩ := by
  rw [← Equiv.sum_comp (finProdFinEquiv : Fin 32 × Fin 256 ≃ Fin 8192) g, Fintype.sum_prod_type]
  refine Finset.sum_congr rfl fun s _ => Finset.sum_congr rfl fun j _ => congrArg g (Fin.ext ?_)
  show j.val + 256 * s.val = 256 * s.val + j.val
  omega

/-- The entry as the kernel accumulates it: run by run. -/
theorem entry_runs (x : (⟨2, ![4096, 8192]⟩ : Shape).Idx → EReal) (mk w : (⟨2, ![8192, 4096]⟩ : Shape).Idx → EReal)
    (r q : Fin 4096) :
    entry x mk w r q = ∑ s : Fin 32, ∑ j : Fin 256,
      x (ix2 r (⟨256 * s.val + j.val, by have := s.isLt; have := j.isLt; omega⟩ : Fin 8192))
        * (mk (ix2 (⟨256 * s.val + j.val, by have := s.isLt; have := j.isLt; omega⟩ : Fin 8192) q)
          * w (ix2 (⟨256 * s.val + j.val, by have := s.isLt; have := j.isLt; omega⟩ : Fin 8192) q)) :=
  sum_runs fun k => x (ix2 r k) * (mk (ix2 k q) * w (ix2 k q))

end Cert.MaskedMatmul

end
-- ==== Proof.Fold.lean ====
/-
  The kernel's result array, entry by entry. The grid has 2 × 4 × 32 points, point `t = (a·4 + b)·32 + s`; the 32
  points of a run share the output block `(a, b)` (rows 2048·a …, columns 1024·b …) and step `s` reads the blocks
  `x[2048·a …, 256·s …]`, `mask[256·s …, 1024·b …]`, `w[256·s …, 1024·b …]`. The block written back after the
  run's last step is the fold of the run: zero, plus each step's 256-term partial sum. At entry `(R, Q)` of the array
  that is the sum over `s < 32` and `j < 256` of `x[R, 256·s + j] · (mask[256·s + j, Q] · w[256·s + j, Q])`, which is
  the specification's entry taken run by run.
-/
import proofs.«112827_j72696616452696_2_alg».proof.Proof.Gen.KernelIdeal.Value
import proofs.«112827_j72696616452696_2_alg».proof.Proof.Payload
import proofs.«112827_j72696616452696_2_alg».proof.Proof.Spec

noncomputable section

open scoped BigOperators

namespace Cert.KernelIdeal.Bridge

open Cert.KernelIdeal Cert.KernelIdeal.Gen Cert.KernelIdeal.Value Idealize.ShloMosaic Idealize.ShloMosaic.TcCoe Idealize.SL.Sem
open Idealize.ShloMosaic.ValueIdx

variable (m : (ℓ : Loc nD τ sig) → Buf (Elt Ideal) ℓ)

/-- The three argument arrays on core `c`, as arrays of extended reals. -/
abbrev argX (c : Dev nD) : FVec Ideal S4096x8192 .f32 := m ((c : Thread nD τ).loc main_arg0)
abbrev argM (c : Dev nD) : FVec Ideal S8192x4096 .f32 := m ((c : Thread nD τ).loc main_arg1)
abbrev argW (c : Dev nD) : FVec Ideal S8192x4096 .f32 := m ((c : Thread nD τ).loc main_arg2)

/-- The index maps of the three input windows, decided over the grid: at point `t` the block of `x` is
    `(t / 128, t % 32)`, the blocks of `mask` and `w` are `(t % 32, t / 32 % 4)`. -/
theorem idx_facts : ∀ t : Fin cfg0.N,
    win0_0.index t (0 : Fin 2) = t.val / 128 ∧ win0_0.index t (1 : Fin 2) = t.val % 32
    ∧ win0_1.index t (0 : Fin 2) = t.val % 32 ∧ win0_1.index t (1 : Fin 2) = t.val / 32 % 4
    ∧ win0_2.index t (0 : Fin 2) = t.val % 32 ∧ win0_2.index t (1 : Fin 2) = t.val / 32 % 4 :=
  (by decide +kernel : ∀ t : Fin grid0.N, _)

/-- Entry `(r, k)` of the block of `x` at point `t` is entry `(2048·(t / 128) + r, 256·(t % 32) + k)` of `x`. -/
theorem xblk_apply (c : Dev nD) (t : Fin cfg0.N) (r : Fin 2048) (k : Fin 256) (R : Fin 4096) (K : Fin 8192)
    (hR : R.val = t.val / 128 * 2048 + r.val) (hK : K.val = t.val % 32 * 256 + k.val) :
    iblk m c 0 t (ix2 r k) = argX m c (ix2 R K) := by
  obtain ⟨e0, e1, -, -, -, -⟩ := idx_facts t
  show V m c main_arg0 (((cfg0.win 0).blk t).view.emb (ix2 r k)) = V m c main_arg0 (ix2 R K)
  refine congrArg (fun j => V m c main_arg0 j) (funext fun a => Fin.ext ?_)
  match a with
  | ⟨0, _⟩ => show win0_0.index t (0 : Fin 2) * 2048 + 1 * r.val = R.val; omega
  | ⟨1, _⟩ => show win0_0.index t (1 : Fin 2) * 256 + 1 * k.val = K.val; omega

/-- Entry `(k, q)` of the block of `mask` at point `t` is entry `(256·(t % 32) + k, 1024·(t / 32 % 4) + q)` of `mask`. -/
theorem mblk_apply (c : Dev nD) (t : Fin cfg0.N) (k : Fin 256) (q : Fin 1024) (K : Fin 8192) (Q : Fin 4096)
    (hK : K.val = t.val % 32 * 256 + k.val) (hQ : Q.val = t.val / 32 % 4 * 1024 + q.val) :
    iblk m c 1 t (ix2 k q) = argM m c (ix2 K Q) := by
  obtain ⟨-, -, e2, e3, -, -⟩ := idx_facts t
  show V m c main_arg1 (((cfg0.win 1).blk t).view.emb (ix2 k q)) = V m c main_arg1 (ix2 K Q)
  refine congrArg (fun j => V m c main_arg1 j) (funext fun a => Fin.ext ?_)
  match a with
  | ⟨0, _⟩ => show win0_1.index t (0 : Fin 2) * 256 + 1 * k.val = K.val; omega
  | ⟨1, _⟩ => show win0_1.index t (1 : Fin 2) * 1024 + 1 * q.val = Q.val; omega

/-- The same for `w`, whose window moves with `mask`'s. -/
theorem wblk_apply (c : Dev nD) (t : Fin cfg0.N) (k : Fin 256) (q : Fin 1024) (K : Fin 8192) (Q : Fin 4096)
    (hK : K.val = t.val % 32 * 256 + k.val) (hQ : Q.val = t.val / 32 % 4 * 1024 + q.val) :
    iblk m c 2 t (ix2 k q) = argW m c (ix2 K Q) := by
  obtain ⟨-, -, -, -, e4, e5⟩ := idx_facts t
  show V m c main_arg2 (((cfg0.win 2).blk t).view.emb (ix2 k q)) = V m c main_arg2 (ix2 K Q)
  refine congrArg (fun j => V m c main_arg2 j) (funext fun a => Fin.ext ?_)
  match a with
  | ⟨0, _⟩ => show win0_2.index t (0 : Fin 2) * 256 + 1 * k.val = K.val; omega
  | ⟨1, _⟩ => show win0_2.index t (1 : Fin 2) * 1024 + 1 * q.val = Q.val; omega

/-- What point `n` adds to entry `(r, q)` of its output block: the partial sum over its three input blocks (zero
    past the grid, where it is never used). -/
def addend (c : Dev nD) (n : ℕ) (r : Fin 2048) (q : Fin 1024) : EReal :=
  if h : n < cfg0.N then
    blockSum (iblk m c 0 ⟨n, h⟩) (iblk m c 1 ⟨n, h⟩) (iblk m c 2 ⟨n, h⟩) r q
  else 0

/-- The first step of a run leaves zero plus its addend. -/
theorem reset_eq (c : Dev nD) (b : ℕ) (h : b < cfg0.N) (y : S2048x1024.Idx) :
    reset3 m c b h y = (0 : EReal) + addend m c b (y 0) (y 1) := by
  obtain ⟨r, q, rfl⟩ : ∃ (r : Fin 2048) (q : Fin 1024), y = ix2 r q := ⟨y 0, y 1, eq_ix2 y⟩
  show k0_pay2 (F := Ideal) (iblk m c 0 ⟨b, h⟩) (iblk m c 1 ⟨b, h⟩) (iblk m c 2 ⟨b, h⟩) (k0_pay1 (F := Ideal)) (ix2 r q)
    = (0 : EReal) + addend m c b r q
  unfold addend
  rw [dif_pos h]
  refine (pay2_apply (iblk m c 0 ⟨b, h⟩) (iblk m c 1 ⟨b, h⟩) (iblk m c 2 ⟨b, h⟩) (k0_pay1 (F := Ideal)) r q).trans ?_
  rw [pay1_apply]

/-- Every later step adds its addend to what the step before left. -/
theorem step_eq (c : Dev nD) (n : ℕ) (h : n < cfg0.N) (acc : S2048x1024.Idx → EReal) (y : S2048x1024.Idx) :
    step3 m c n h acc y = acc y + addend m c n (y 0) (y 1) := by
  obtain ⟨r, q, rfl⟩ : ∃ (r : Fin 2048) (q : Fin 1024), y = ix2 r q := ⟨y 0, y 1, eq_ix2 y⟩
  show k0_pay2 (F := Ideal) (iblk m c 0 ⟨n, h⟩) (iblk m c 1 ⟨n, h⟩) (iblk m c 2 ⟨n, h⟩) acc (ix2 r q)
    = acc (ix2 r q) + addend m c n r q
  unfold addend
  rw [dif_pos h]
  exact pay2_apply (iblk m c 0 ⟨n, h⟩) (iblk m c 1 ⟨n, h⟩) (iblk m c 2 ⟨n, h⟩) acc r q

/-- The addend of point `n`, step `s = n % 32` of its run, in the argument arrays: the terms `256·s … 256·s + 255` of
    the contraction at the array entry `(R, Q)` that the block entry `(r, q)` is. -/
theorem addend_eq (c : Dev nD) (n : ℕ) (h : n < cfg0.N) (r : Fin 2048) (q : Fin 1024) (R Q : Fin 4096) (s : Fin 32)
    (hR : R.val = n / 128 * 2048 + r.val) (hQ : Q.val = n / 32 % 4 * 1024 + q.val) (hs : s.val = n % 32) :
    addend m c n r q = ∑ j : Fin 256,
      argX m c (ix2 R (⟨256 * s.val + j.val, by have := s.isLt; have := j.isLt; omega⟩ : Fin 8192))
        * (argM m c (ix2 (⟨256 * s.val + j.val, by have := s.isLt; have := j.isLt; omega⟩ : Fin 8192) Q)
          * argW m c (ix2 (⟨256 * s.val + j.val, by have := s.isLt; have := j.isLt; omega⟩ : Fin 8192) Q)) := by
  unfold addend
  rw [dif_pos h]
  unfold blockSum
  refine Finset.sum_congr rfl fun j _ => ?_
  have hj := j.isLt
  rw [xblk_apply m c ⟨n, h⟩ r j R ⟨256 * s.val + j.val, by have := s.isLt; omega⟩ hR (by show 256 * s.val + j.val = n % 32 * 256 + j.val; omega),
    mblk_apply m c ⟨n, h⟩ j q ⟨256 * s.val + j.val, by have := s.isLt; omega⟩ Q (by show 256 * s.val + j.val = n % 32 * 256 + j.val; omega) hQ,
    wblk_apply m c ⟨n, h⟩ j q ⟨256 * s.val + j.val, by have := s.isLt; omega⟩ Q (by show 256 * s.val + j.val = n % 32 * 256 + j.val; omega) hQ]

/-- Entry `(R, Q)` of the array the kernel leaves is the specification's entry. -/
theorem G3_entry (c : Dev nD) (R Q : Fin 4096) :
    G3 m c (ix2 R Q) = Cert.MaskedMatmul.entry (argX m c) (argM m c) (argW m c) R Q := by
  have hR := R.isLt
  have hQ := Q.isLt
  have hN : cfg0.N = 256 := N_0
  have hrun : run3Of (ix2 R Q) = 4 * (R.val / 2048) + Q.val / 1024 := by
    show 4 * (R.val / 2048 - 0) + 1 * (Q.val / 1024 - 0) = _
    omega
  have hlt : 32 * run3Of (ix2 R Q) + 31 < cfg0.N := by rw [hrun, hN]; omega
  have hr : ((loc3Of (ix2 R Q)) 0).val = R.val % 2048 := rfl
  have hq : ((loc3Of (ix2 R Q)) 1).val = Q.val % 1024 := rfl
  unfold G3
  rw [dif_pos hlt]
  show @Eq EReal _ _
  rw [Pipeline.accAt_add_apply (ι := S2048x1024.Idx) (β := EReal) (reset3 m c) (step3 m c) (fun _ => 0)
    (fun n y => addend m c n (y 0) (y 1)) (32 * run3Of (ix2 R Q)) 31
    (fun h y => reset_eq m c _ h y) (fun n h acc y _ _ => step_eq m c n h acc y) 31 le_rfl hlt (loc3Of (ix2 R Q))]
  rw [zero_add, Finset.sum_range, Cert.MaskedMatmul.entry_runs]
  refine Finset.sum_congr rfl fun s _ => ?_
  have hs := s.isLt
  exact addend_eq m c (32 * run3Of (ix2 R Q) + s.val) (by rw [hrun, hN]; omega) _ _ R Q s
    (by rw [hr, hrun]; omega) (by rw [hq, hrun]; omega) (by rw [hrun]; omega)

/-- The kernel's result array is the specification's product of its three arguments. -/
theorem G3_eq (c : Dev nD) :
    G3 m c = Cert.MaskedMatmul.product (argX m c) (argM m c) (argW m c) := by
  funext i
  obtain ⟨R, Q, rfl⟩ : ∃ (R Q : Fin 4096), i = ix2 R Q := ⟨i 0, i 1, eq_ix2 i⟩
  exact G3_entry m c R Q

end Cert.KernelIdeal.Bridge

end
-- ==== Proof.RefSum.lean ====
/-
  The reference's result, read entry by entry: jnp's `matmul(x, mask * w)` on the host is, at the extended reals,
  the sum over the contracted axis of `x[r, k] · (mask[k, q] · w[k, q])` — the specification's `product`.
-/
import proofs.«112827_j72696616452696_2_alg».proof.Proof.Gen.ReferenceIdeal.Read
import proofs.«112827_j72696616452696_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The operand indices of the host's contraction at output entry `i` and contracted index `k` are `(i 0, k)` on the
    left and `(k, i 1)` on the right. -/
theorem lidx_eq (i : S4096x4096.Idx) (k : Fin 8192) : lidx_main_v1 i k = ix2 (i 0) k :=
  funext fun a => Fin.ext (by match a with | ⟨0, _⟩ => rfl | ⟨1, _⟩ => rfl)
theorem ridx_eq (i : S4096x4096.Idx) (k : Fin 8192) : ridx_main_v1 i k = ix2 k (i 1) :=
  funext fun a => Fin.ext (by match a with | ⟨0, _⟩ => rfl | ⟨1, _⟩ => rfl)

/-- The reference's term is the specification's product of its three arguments. -/
theorem result_eq (x0 : FVec Ideal S4096x8192 .f32) (x1 x2 : FVec Ideal S8192x4096 .f32) :
    Host.dotGeneral (F := Ideal) dot_S4096x8192_S8192x4096_S4096x4096_1_0_0_1_n_n none x0 (mulf (F := Ideal) x1 x2)
      = Cert.MaskedMatmul.product x0 x1 x2 := by
  rw [val_main_v1_eq]
  funext i
  rw [val_main_v1_apply]
  unfold Cert.MaskedMatmul.product Cert.MaskedMatmul.entry
  refine Finset.sum_congr rfl fun k _ => ?_
  rw [val_main_v0_apply, lidx_eq, ridx_eq]
  rfl

end Cert.ReferenceIdeal.RefValue

end
-- ==== Proof.lean ====
/-
  A masked linear layer: `y = x · (mask ⊙ w)` with `x` of 4096 × 8192 and `mask`, `w` of 8192 × 4096.
  The kernel tiles the output in 2 × 4 blocks of 2048 × 1024 and the contracted axis in 32 runs of 256; on each step it
  multiplies the `mask` and `w` blocks entrywise, multiplies the `x` block by the result on the matrix unit, and adds
  the product into the output block, which it zeroes on the first step of a run. The reference multiplies `mask` and
  `w` entrywise and takes one whole matrix product. Over the extended reals the changes of float format are the
  identity and both programs compute, at entry `(r, q)`,
      ∑ k < 8192, x[r, k] · (mask[k, q] · w[k, q]);
  the kernel takes this sum in 32 consecutive runs of 256 terms starting from zero, the reference at once, and the two
  agree because addition of extended reals is commutative and associative (no finiteness of the inputs is needed).
  The specification is in Proof/Spec.lean, the body's arithmetic at an entry in Proof/Payload.lean, the kernel's array
  as the specification in Proof/Fold.lean, the reference's in Proof/RefSum.lean. No operation of the kernel is
  rewritten in its idealization, so the idealized kernel is the kernel's own text read at the extended reals and the
  claim that it is the kernel's idealization has nothing to state.
-/
import proofs.«112827_j72696616452696_2_alg».proof.Defs
import proofs.«112827_j72696616452696_2_alg».proof.Proof.Gen.Kernel.Frame
import proofs.«112827_j72696616452696_2_alg».proof.Proof.Gen.KernelIdeal.Value
import proofs.«112827_j72696616452696_2_alg».proof.Proof.Gen.Pre_finite_inputs
import proofs.«112827_j72696616452696_2_alg».proof.Proof.Gen.ReferenceIdeal.Run
import proofs.«112827_j72696616452696_2_alg».proof.Proof.Fold
import proofs.«112827_j72696616452696_2_alg».proof.Proof.RefSum
import Idealize.ShloMosaic.Adequacy
import Idealize.ShloMosaic.Init

noncomputable section

namespace Cert.Proof

open Idealize.ShloMosaic Idealize.SL.Sem

/-- The idealized kernel terminates without a fault and leaves its arguments as they were: its value run, with the
    result forgotten. -/
theorem frame_KernelIdeal : frame_KernelIdeal := fun m ρ _ =>
  (θ_run Cert.KernelIdeal.defs _ _).mono (fun _ h c => (h c).2) (Cert.KernelIdeal.Value.run (F := Ideal) m ρ)

/-- The same for the reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on `x`, `mask` and `w`, both programs end with the array `x · (mask ⊙ w)`. -/
theorem algebraic_KernelIdeal_ReferenceIdeal : algebraic_KernelIdeal_ReferenceIdeal := by
  intro m ρ m' ρ' _ hagree
  refine ⟨fun c => Cert.MaskedMatmul.product (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Bridge.G3_eq m c), (h c).2⟩)
      (Cert.KernelIdeal.Value.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
